-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x256 .f32) (main_arg1 : FVec F S10000x10000 .f32) (main_arg2 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x256 : Shape := ⟨2, ![10000, 256]⟩
abbrev S10000x10000 : Shape := ⟨2, ![10000, 10000]⟩
abbrev S256x256 : Shape := ⟨2, ![256, 256]⟩
abbrev S400x10000 : Shape := ⟨2, ![400, 10000]⟩
abbrev S400x256 : Shape := ⟨2, ![400, 256]⟩

abbrev nBuf : Space → Nat
  | .hbm => 4
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S400x256, .f32⟩
  | .local _ .vmem, ⟨5, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_1_0_0_n_n_wf : DotDims.WF S400x256 S256x256 S400x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .f32 = 32 ∨ (Rect.block (s := S10000x256) S400x256.size (cc0_transform_3 i) (hinb0_3 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_1_0_0_n_n : DotDims S400x256 S256x256 S400x256 where
  lhsContracting := [1]
  rhsContracting := [1]
  lhsNonContracting := [0]
  rhsNonContracting := [0]
  lhsBatch := []
  rhsBatch := []
  wf := dot_S400x256_S256x256_S400x256_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S10000x256, .f32⟩
  | .hbm, ⟨5, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S256x256_S256x256_1_0 : S256x256.Transposes [1, 0] S256x256
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  The precondition "every input is finite" gives: every entry of the three argument arrays is a real number.

  The precondition is the conjunction, over the three arrays, of "all entries have absolute value below +∞".  A
  conjunction of one-bit words is 1 only when both are; a reduction by "and" over all axes is 1 only when every entry
  is; and on the extended reals an entry whose absolute value is below +∞ is neither +∞ nor −∞, so it is a real.
-/
import proofs.«127633_g6665789243860_cont_9to1c4b_662_6_alg».proof.Pre_finite_inputs
import proofs.«127633_g6665789243860_cont_9to1c4b_662_6_alg».proof.Proof.LibRealEntry
import Idealize.ShloMosaic.Lib.ReduceAll
import Idealize.ShloMosaic.Lib.ValueIdx

noncomputable section

namespace Cert.GraphConv.Finite

open Idealize.ShloMosaic Cert.Pre_finite_inputs

/-- The scalar shape has one index. -/
instance : Subsingleton S_.Idx := ⟨fun a b => funext fun d => d.elim0⟩

variable [Facts]

/-- Under the precondition every entry of the node features, of the adjacency matrix and of the weight matrix is a
    real number. -/
theorem real_entries (a0 : FVec Ideal S10000x256 .f32) (a1 : FVec Ideal S10000x10000 .f32) (a2 : FVec Ideal S256x256 .f32)
    (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact Cert.LibRealEntry.real_of_abs_lt (a0 i) (Host.reduce_andi_all _ _ _ _ _ h0' i)
  · exact Cert.LibRealEntry.real_of_abs_lt (a1 i) (Host.reduce_andi_all _ _ _ _ _ h1 i)
  · exact Cert.LibRealEntry.real_of_abs_lt (a2 i) (Host.reduce_andi_all _ _ _ _ _ h2 i)

end Cert.GraphConv.Finite

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.Payload.lean ====
/-
  What the kernel body stores, read at an entry of its [400, 256] output block.

  The body multiplies its [400, 10000] block of adjacency rows by the whole [10000, 256] feature matrix, then
  multiplies the [400, 256] result by the transpose of the [256, 256] weight matrix, each product accumulated from
  zero.  On the extended reals entry `(p, j)` of what it stores is therefore
      ∑ d, (∑ k, a (p, k) · x (k, d)) · w (j, d)
  for the loaded blocks `a`, `x`, `w`.
-/
import proofs.«127633_g6665789243860_cont_9to1c4b_662_6_alg».proof.Proof.Gen.KernelIdeal.Skeleton
import proofs.«127633_g6665789243860_cont_9to1c4b_662_6_alg».proof.Proof.LibRowOps
import proofs.«127633_g6665789243860_cont_9to1c4b_662_6_alg».proof.Proof.LibMatmulNT

noncomputable section

namespace Cert.GraphConv.Payload

open Idealize.ShloMosaic Idealize.ShloMosaic.ValueIdx Cert.KernelIdeal Cert.KernelIdeal.Gen
open scoped BigOperators

/-! ### Which operand coordinate each product reads -/

theorem ax_l0 (j : S400x256.Idx) (q : dot_S400x10000_S10000x256_S400x256_1_0_0_1_n_n.contr.Idx) : (dot_S400x10000_S10000x256_S400x256_1_0_0_1_n_n.lhsIdx j q 0).val = (j 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem ax_l1 (j : S400x256.Idx) (q : dot_S400x10000_S10000x256_S400x256_1_0_0_1_n_n.contr.Idx) : (dot_S400x10000_S10000x256_S400x256_1_0_0_1_n_n.lhsIdx j q 1).val = (q ⟨0, by decide⟩).val :=
  dot_S400x10000_S10000x256_S400x256_1_0_0_1_n_n.lhsIdx_val_of_single rfl j q
theorem ax_r0 (j : S400x256.Idx) (q : dot_S400x10000_S10000x256_S400x256_1_0_0_1_n_n.contr.Idx) : (dot_S400x10000_S10000x256_S400x256_1_0_0_1_n_n.rhsIdx j q 0).val = (q ⟨0, by decide⟩).val :=
  dot_S400x10000_S10000x256_S400x256_1_0_0_1_n_n.rhsIdx_val_of_single rfl j q
theorem ax_r1 (j : S400x256.Idx) (q : dot_S400x10000_S10000x256_S400x256_1_0_0_1_n_n.contr.Idx) : (dot_S400x10000_S10000x256_S400x256_1_0_0_1_n_n.rhsIdx j q 1).val = (j 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

theorem gw_l0 (j : S400x256.Idx) (q : dot_S400x256_S256x256_S400x256_1_1_0_0_n_n.contr.Idx) : (dot_S400x256_S256x256_S400x256_1_1_0_0_n_n.lhsIdx j q 0).val = (j 0).val := by
  unfold DotDims.lhsIdx
  rw [dif_neg (show ¬(0 : Fin S400x256.rank) ∈ dot_S400x256_S256x256_S400x256_1_1_0_0_n_n.lhsBatch by decide), dif_pos (show (0 : Fin S400x256.rank) ∈ dot_S400x256_S256x256_S400x256_1_1_0_0_n_n.lhsNonContracting by decide)]
  rfl
theorem gw_l1 (j : S400x256.Idx) (q : dot_S400x256_S256x256_S400x256_1_1_0_0_n_n.contr.Idx) : (dot_S400x256_S256x256_S400x256_1_1_0_0_n_n.lhsIdx j q 1).val = (q ⟨0, by decide⟩).val :=
  dot_S400x256_S256x256_S400x256_1_1_0_0_n_n.lhsIdx_val_of_single rfl j q
theorem gw_r0 (j : S400x256.Idx) (q : dot_S400x256_S256x256_S400x256_1_1_0_0_n_n.contr.Idx) : (dot_S400x256_S256x256_S400x256_1_1_0_0_n_n.rhsIdx j q 0).val = (j 1).val := by
  unfold DotDims.rhsIdx
  rw [dif_neg (show ¬(0 : Fin S256x256.rank) ∈ dot_S400x256_S256x256_S400x256_1_1_0_0_n_n.rhsBatch by decide), dif_pos (show (0 : Fin S256x256.rank) ∈ dot_S400x256_S256x256_S400x256_1_1_0_0_n_n.rhsNonContracting by decide)]
  rfl
theorem gw_r1 (j : S400x256.Idx) (q : dot_S400x256_S256x256_S400x256_1_1_0_0_n_n.contr.Idx) : (dot_S400x256_S256x256_S400x256_1_1_0_0_n_n.rhsIdx j q 1).val = (q ⟨0, by decide⟩).val :=
  dot_S400x256_S256x256_S400x256_1_1_0_0_n_n.rhsIdx_val_of_single rfl j q

/-! ### The stored value at an entry -/

/-- Entry `(p, j)` of the stored block: the row of aggregated features of node `p` against row `j` of the weights. -/
theorem stored_apply (a : Vec Ideal S400x10000 .f32) (x : Vec Ideal S10000x256 .f32) (w : Vec Ideal S256x256 .f32)
    (p : Fin 400) (j : Fin 256) :
    k0_pay1 (F := Ideal) a x w (ix2 p j) = ∑ d : Fin 256, (∑ k : Fin 10000, a (ix2 p k) * x (ix2 k d)) * w (ix2 j d) := by
  unfold k0_pay1
  refine (Cert.LibMatmulNT.matmul_nt_zero_apply dot_S400x256_S256x256_S400x256_1_1_0_0_n_n none _ w rfl rfl gw_l0 gw_l1 gw_r0 gw_r1 p j).trans ?_
  refine Finset.sum_congr rfl fun d _ => ?_
  exact congrArg (· * w (ix2 j d))
    (Cert.LibRowOps.matmul_zero_apply dot_S400x10000_S10000x256_S400x256_1_0_0_1_n_n none a x rfl rfl ax_l0 ax_l1 ax_r0 ax_r1 p d)

end Cert.GraphConv.Payload

end
-- ==== Proof.Assoc.lean ====
/-
  Associativity of the triple matrix product, entry by entry.

  For finite index sets `K` and `D`, a row `a : K → ·`, a matrix `x : K → D → ·` and a row `w : D → ·`,
      ∑ d, (∑ k, a k * x k d) * w d  =  ∑ k, a k * (∑ d, x k d * w d).
  Over the reals this is distributivity on both sides and an exchange of the two sums.  On the extended reals
  distributivity fails at the infinities, so the law is stated for entries that are real numbers: the coercion from
  the reals commutes with products and with finite sums, and the law is the image of the real one.
-/
import Idealize.ShloMosaic.PureOps.Ideal

noncomputable section

namespace Cert.GraphConv

open scoped BigOperators

/-- The coercion from the reals to the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals: `(a · x) · w = a · (x · w)` for a row `a`, a matrix `x` and a column `w`. -/
theorem assoc_real {K D : Type} [Fintype K] [Fintype D] (a : K → ℝ) (x : K → D → ℝ) (w : D → ℝ) :
    ∑ d, (∑ k, a k * x k d) * w d = ∑ k, a k * ∑ d, x k d * w d := by
  simp only [Finset.sum_mul, Finset.mul_sum]
  rw [Finset.sum_comm]
  exact Finset.sum_congr rfl fun k _ => Finset.sum_congr rfl fun d _ => mul_assoc _ _ _

/-- The same law on the extended reals, for entries that are real numbers. -/
theorem assoc_ereal {K D : Type} [Fintype K] [Fintype D] (a : K → EReal) (x : K → D → EReal) (w : D → EReal)
    (ha : ∀ k, ∃ r : ℝ, a k = (r : EReal)) (hx : ∀ k d, ∃ r : ℝ, x k d = (r : EReal))
    (hw : ∀ d, ∃ r : ℝ, w d = (r : EReal)) :
    ∑ d, (∑ k, a k * x k d) * w d = ∑ k, a k * ∑ d, x k d * w d := by
  choose a' ha' using ha
  choose x' hx' using hx
  choose w' hw' using hw
  simp only [ha', hx', hw', ← EReal.coe_mul, ← coe_sum]
  exact congrArg _ (assoc_real a' x' w')

end Cert.GraphConv

end
-- ==== Proof.Spec.lean ====
/-
  The graph convolution as one function of its three arguments, in the two groupings the two programs compute.

  With node features `x` ([10000, 256]), a dense adjacency matrix `adj` ([10000, 10000]) and a weight matrix `W`
  ([256, 256], one row per output feature), entry `(p, j)` of the result is

    * aggregating first:  ∑ d, (∑ k, adj (p, k) · x (k, d)) · W (j, d)     — `(adj · x) · Wᵀ`;
    * projecting first:   ∑ k, adj (p, k) · (∑ d, x (k, d) · W (j, d))     — `adj · (x · Wᵀ)`.

  The two agree whenever every entry is a real number (associativity of the matrix product).
-/
import proofs.«127633_g6665789243860_cont_9to1c4b_662_6_alg».proof.Proof.Assoc
import Idealize.ShloMosaic.Lib.ValueIdx

noncomputable section

namespace Cert.GraphConv

open Idealize.ShloMosaic Idealize.ShloMosaic.ValueIdx
open scoped BigOperators

/-- Entry `(p, j)` of `(adj · x) · Wᵀ`. -/
def aggFirstAt (x : (⟨2, ![10000, 256]⟩ : Shape).Idx → EReal) (adj : (⟨2, ![10000, 10000]⟩ : Shape).Idx → EReal)
    (W : (⟨2, ![256, 256]⟩ : Shape).Idx → EReal) (p : Fin 10000) (j : Fin 256) : EReal :=
  ∑ d : Fin 256, (∑ k : Fin 10000, adj (ix2 p k) * x (ix2 k d)) * W (ix2 j d)

/-- Entry `(p, j)` of `adj · (x · Wᵀ)`. -/
def projFirstAt (x : (⟨2, ![10000, 256]⟩ : Shape).Idx → EReal) (adj : (⟨2, ![10000, 10000]⟩ : Shape).Idx → EReal)
    (W : (⟨2, ![256, 256]⟩ : Shape).Idx → EReal) (p : Fin 10000) (j : Fin 256) : EReal :=
  ∑ k : Fin 10000, adj (ix2 p k) * ∑ d : Fin 256, x (ix2 k d) * W (ix2 j d)

/-- `(adj · x) · Wᵀ` as a whole array. -/
def aggFirst (x : (⟨2, ![10000, 256]⟩ : Shape).Idx → EReal) (adj : (⟨2, ![10000, 10000]⟩ : Shape).Idx → EReal)
    (W : (⟨2, ![256, 256]⟩ : Shape).Idx → EReal) : (⟨2, ![10000, 256]⟩ : Shape).Idx → EReal :=
  fun i => aggFirstAt x adj W (i 0) (i 1)

/-- `adj · (x · Wᵀ)` as a whole array. -/
def projFirst (x : (⟨2, ![10000, 256]⟩ : Shape).Idx → EReal) (adj : (⟨2, ![10000, 10000]⟩ : Shape).Idx → EReal)
    (W : (⟨2, ![256, 256]⟩ : Shape).Idx → EReal) : (⟨2, ![10000, 256]⟩ : Shape).Idx → EReal :=
  fun i => projFirstAt x adj W (i 0) (i 1)

/-- For real entries the two groupings are one array. -/
theorem projFirst_eq_aggFirst (x : (⟨2, ![10000, 256]⟩ : Shape).Idx → EReal)
    (adj : (⟨2, ![10000, 10000]⟩ : Shape).Idx → EReal) (W : (⟨2, ![256, 256]⟩ : Shape).Idx → EReal)
    (hx : ∀ i, ∃ r : ℝ, x i = (r : EReal)) (hadj : ∀ i, ∃ r : ℝ, adj i = (r : EReal))
    (hW : ∀ i, ∃ r : ℝ, W i = (r : EReal)) :
    projFirst x adj W = aggFirst x adj W :=
  funext fun i => (assoc_ereal (fun k : Fin 10000 => adj (ix2 (i 0) k)) (fun (k : Fin 10000) (d : Fin 256) => x (ix2 k d))
    (fun d : Fin 256 => W (ix2 (i 1) d)) (fun _ => hadj _) (fun _ _ => hx _) (fun _ => hW _)).symm

end Cert.GraphConv

end
-- ==== Proof.KernelValue.lean ====
/-
  The kernel's result array is `(adj · x) · Wᵀ`.

  The grid has 25 points.  At point `t` the kernel is handed rows `400 t … 400 t + 399` of the adjacency matrix, the
  whole feature matrix and the whole weight matrix, and writes back rows `400 t … 400 t + 399` of the result.  What it
  writes at row `p` of its block, column `j`, is the stored value of the body read at `(p, j)`, that is entry
  `(400 t + p, j)` of `(adj · x) · Wᵀ`.  The 25 row blocks tile the result array (row `r` lies in block `r / 400`), so
  after the run the array is `(adj · x) · Wᵀ` everywhere.
-/
import proofs.«127633_g6665789243860_cont_9to1c4b_662_6_alg».proof.Proof.Gen.KernelIdeal.Value
import proofs.«127633_g6665789243860_cont_9to1c4b_662_6_alg».proof.Proof.Payload
import proofs.«127633_g6665789243860_cont_9to1c4b_662_6_alg».proof.Proof.Spec
import Idealize.ShloMosaic.Lib.Pipeline.Value
import Idealize.ShloMosaic.Lib.Tactic

noncomputable section

namespace Cert.GraphConv.KernelValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the adjacency rows and the result rows move with the point, the features
    and the weights stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ### The input blocks at a point -/

/-- Row `y 0` of the adjacency block at point `t` is row `400 t + y 0` of the adjacency matrix. -/
theorem adj_block (c : Dev nD) (t : Fin cfg0.N) (y : S400x10000.Idx) (i : S10000x10000.Idx)
    (h0 : (i 0).val = 400 * t.val + (y 0).val) (h1 : (i 1).val = (y 1).val) :
    (iblk m c 0 t : Vec Ideal S400x10000 .f32) y
      = (m ((c : Thread nD τ).loc main_arg1) : S10000x10000.Idx → EReal) i := by
  obtain ⟨e0, e1, -⟩ := idx_facts t
  unfold iblk
  rw [View.read_apply]
  show V m c main_arg1 _ = m (c.tc.loc main_arg1) _
  unfold V
  congr 1
  funext a
  apply Fin.ext
  match a with
  | ⟨0, _⟩ => show win0_0.index t 0 * 400 + 1 * (y 0).val = (i 0).val; rw [e0, h0]; omega
  | ⟨1, _⟩ => show win0_0.index t 1 * 10000 + 1 * (y 1).val = (i 1).val; rw [e1, h1]; omega

/-- The feature block at every point is the whole feature matrix. -/
theorem x_block (c : Dev nD) (t : Fin cfg0.N) :
    (iblk m c 1 t : Vec Ideal S10000x256 .f32) = (m ((c : Thread nD τ).loc main_arg0) : S10000x256.Idx → EReal) := by
  obtain ⟨-, -, e2, e3, -⟩ := idx_facts t
  funext y
  unfold iblk
  rw [View.read_apply]
  show V m c main_arg0 _ = m (c.tc.loc main_arg0) _
  unfold V
  congr 1
  funext a
  apply Fin.ext
  match a with
  | ⟨0, _⟩ => show win0_1.index t 0 * 10000 + 1 * (y 0).val = (y 0).val; rw [e2]; omega
  | ⟨1, _⟩ => show win0_1.index t 1 * 256 + 1 * (y 1).val = (y 1).val; rw [e3]; omega

/-- The weight block at every point is the whole weight matrix. -/
theorem w_block (c : Dev nD) (t : Fin cfg0.N) :
    (iblk m c 2 t : Vec Ideal S256x256 .f32) = (m ((c : Thread nD τ).loc main_arg2) : S256x256.Idx → EReal) := by
  obtain ⟨-, -, -, -, e4, e5, -⟩ := idx_facts t
  funext y
  unfold iblk
  rw [View.read_apply]
  show V m c main_arg2 _ = m (c.tc.loc main_arg2) _
  unfold V
  congr 1
  funext a
  apply Fin.ext
  match a with
  | ⟨0, _⟩ => show win0_2.index t 0 * 256 + 1 * (y 0).val = (y 0).val; rw [e4]; omega
  | ⟨1, _⟩ => show win0_2.index t 1 * 256 + 1 * (y 1).val = (y 1).val; rw [e5]; omega

/-! ### What a point writes back -/

/-- The stored value over a block `a` of adjacency rows whose row `p` is row `row p` of `adj`, with the whole feature
    and weight matrices: entry `(p, j)` is entry `(row p, j)` of `(adj · x) · Wᵀ`. -/
theorem stored_is_aggFirst (x : (⟨2, ![10000, 256]⟩ : Shape).Idx → EReal) (adj : (⟨2, ![10000, 10000]⟩ : Shape).Idx → EReal)
    (W : (⟨2, ![256, 256]⟩ : Shape).Idx → EReal) (a : Vec Ideal S400x10000 .f32) (row : Fin 400 → Fin 10000)
    (ha : ∀ p k, a (ix2 p k) = adj (ix2 (row p) k)) (p : Fin 400) (j : Fin 256) :
    k0_pay1 (F := Ideal) a x W (ix2 p j) = aggFirstAt x adj W (row p) j := by
  rw [Payload.stored_apply]
  unfold aggFirstAt
  simp only [ha]

/-- What point `t` writes back is block `t` of `(adj · x) · Wᵀ` of the argument arrays. -/
theorem flushed_eq (c : Dev nD) (t : Fin cfg0.N) :
    (dats m 0 c).flushed 3 t = ((cfg0.win 3).blk t).view.read (Elt Ideal)
      (aggFirst (m ((c : Thread nD τ).loc main_arg0)) (m ((c : Thread nD τ).loc main_arg1)) (m ((c : Thread nD τ).loc main_arg2))) := by
  have hN : cfg0.N = 25 := N_0
  have ht : t.val < 25 := hN ▸ t.isLt
  obtain ⟨-, -, -, -, -, -, e6, e7⟩ := idx_facts t
  rw [Value.flushed3]
  unfold out0_3
  rw [View.canon_unit_zero hz]
  simp only [View.ld_unit_zero (S := S400x10000) hz, View.ld_unit_zero (S := S10000x256) hz, View.ld_unit_zero (S := S256x256) hz]
  refine funext fun (y : S400x256.Idx) => ?_
  show k0_pay1 (F := Ideal) (iblk m c 0 t) (iblk m c 1 t) (iblk m c 2 t) y = aggFirst _ _ _ (((cfg0.win 3).blk t).view.emb y)
  rw [x_block m c t, w_block m c t]
  obtain ⟨p, j, rfl⟩ : ∃ (p : Fin 400) (j : Fin 256), y = ix2 p j := ⟨y 0, y 1, eq_ix2 y⟩
  refine (stored_is_aggFirst _ (m ((c : Thread nD τ).loc main_arg1)) _ (iblk m c 0 t)
    (fun p => ⟨400 * t.val + p.val, by have := p.isLt; omega⟩)
    (fun p k => adj_block m c t (ix2 p k) (ix2 ⟨400 * t.val + p.val, by have := p.isLt; omega⟩ k) rfl rfl) p j).trans ?_
  unfold aggFirst
  congr 1 <;> apply Fin.ext
  · show 400 * t.val + p.val = win0_3.index t 0 * 400 + 1 * p.val
    rw [e6]; omega
  · show j.val = win0_3.index t 1 * 256 + 1 * j.val
    rw [e7]; omega

/-! ### The blocks tile the array -/

/-- An index of the result array is in point `t`'s block iff each coordinate is in the block's range on its axis. -/
theorem mem_blk (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v0).slice (win0_3.rect t)).set ↔ _
  rw [View.set_slice_whole, Rect.mem_set_unit]
  exact Iff.rfl

/-- Row `r` of the result lies in the block of point `r / 400`. -/
theorem cover (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, e6, e7⟩ := idx_facts t
  refine ⟨t, flush0_3 t, (mem_blk t i).2 fun a => ?_⟩
  match a with
  | ⟨0, _⟩ => show win0_3.index t 0 * 400 ≤ (i 0).val ∧ (i 0).val < win0_3.index t 0 * 400 + 400; rw [e6, ht]; omega
  | ⟨1, _⟩ => show win0_3.index t 1 * 256 ≤ (i 1).val ∧ (i 1).val < win0_3.index t 1 * 256 + 256; rw [e7]; omega

/-! ### The array after the run, and the run -/

/-- After the run the result array is `(adj · x) · Wᵀ` of the argument arrays. -/
theorem final (c : Dev nD) : (dats m 0 c).arrAt 3 cfg0.N
    = aggFirst (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel ends with the result array at `(adj · x) · Wᵀ` of the arguments as
    launched, and the arguments unchanged. -/
theorem run : θ_run defs (onTc (τ := τ) (main (F := Ideal))) ⟨m, fun _ => 0, ρ⟩ fun r => ∀ c : Dev nD,
      r.2.mem ((c : Thread nD τ).loc main_v0)
        = aggFirst (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.GraphConv.KernelValue

end
-- ==== Proof.RefValue.lean ====
/-
  The reference computes the graph convolution projecting first.

  Its three operations are a transpose of the weights, the product of the features with that transpose, and the
  product of the adjacency matrix with the result.  Read at entry `i = (p, j)`: the outer product is a sum over the
  node `k` of `adj (p, k)` times the inner product at `(k, j)`, which is the sum over the feature `d` of
  `x (k, d)` times the transposed weights at `(d, j)`, that is `W (j, d)`.
-/
import proofs.«127633_g6665789243860_cont_9to1c4b_662_6_alg».proof.Proof.Gen.ReferenceIdeal.Read
import proofs.«127633_g6665789243860_cont_9to1c4b_662_6_alg».proof.Proof.Spec

noncomputable section

namespace Cert.GraphConv.RefValue

open Idealize.ShloMosaic Idealize.ShloMosaic.ValueIdx Cert.ReferenceIdeal Cert.ReferenceIdeal.Read
open scoped BigOperators

/-- The adjacency entry the outer product reads at contraction position `k`. -/
theorem adj_idx (i : S10000x256.Idx) (k : Fin 10000) : lidx_main_v2 i k = ix2 (i 0) k :=
  funext fun a => Fin.ext (by match a with | ⟨0, _⟩ => rfl | ⟨1, _⟩ => rfl)

/-- The feature entry the inner product reads, for the outer product's position `k` and its own position `d`. -/
theorem x_idx (i : S10000x256.Idx) (k : Fin 10000) (d : Fin 256) : lidx_main_v1 (ridx_main_v2 i k) d = ix2 k d :=
  funext fun a => Fin.ext (by match a with | ⟨0, _⟩ => rfl | ⟨1, _⟩ => rfl)

/-- The weight entry read through the transpose. -/
theorem w_idx (i : S10000x256.Idx) (k : Fin 10000) (d : Fin 256) :
    idx_main_v0 (ridx_main_v1 (ridx_main_v2 i k) d) = ix2 (i 1) d :=
  funext fun a => Fin.ext (by match a with | ⟨0, _⟩ => rfl | ⟨1, _⟩ => rfl)

/-- The reference's result is `adj · (x · Wᵀ)`, entry by entry. -/
theorem reference_eq (x0 : (⟨S10000x256, .f32⟩ : BufTy).Contents (Elt Ideal))
    (x1 : (⟨S10000x10000, .f32⟩ : BufTy).Contents (Elt Ideal)) (x2 : (⟨S256x256, .f32⟩ : BufTy).Contents (Elt Ideal)) :
    val_main_v2 (F := Ideal) x0 x1 x2 = projFirst x0 x1 x2 := by
  funext i
  rw [val_main_v2_apply]
  unfold projFirst projFirstAt
  refine Finset.sum_congr rfl fun k _ => ?_
  rw [val_main_v1_apply, adj_idx]
  refine congrArg (x1 (ix2 (i 0) k) * ·) (Finset.sum_congr rfl fun d _ => ?_)
  rw [val_main_v0_apply, x_idx, w_idx]
  rfl

end Cert.GraphConv.RefValue

end
-- ==== Proof.lean ====
/-
  A graph convolution with a dense adjacency matrix: `out = adj · (x · Wᵀ)`.

  The kernel walks the adjacency matrix in 25 blocks of 400 rows; for each block it first aggregates the neighbours'
  features (`adj_block · x`) and then projects with the weights (`· Wᵀ`), so its result is `(adj · x) · Wᵀ`.  The
  reference projects first and aggregates afterwards: `adj · (x · Wᵀ)`.  Both products are accumulated from zero, and on
  the extended reals each is the plain sum of products; the two groupings agree by associativity of the matrix product,
  which is distributivity on both sides and an exchange of two finite sums.  Distributivity fails at the infinities,
  and this is where the precondition is used: every input entry is finite, hence a real number.

  The three frames are the programs' runs with the results dropped; no operation was rewritten by the idealization, so
  there is nothing to preserve.
-/
import proofs.«127633_g6665789243860_cont_9to1c4b_662_6_alg».proof.Defs
import proofs.«127633_g6665789243860_cont_9to1c4b_662_6_alg».proof.Proof.Gen.Kernel
import proofs.«127633_g6665789243860_cont_9to1c4b_662_6_alg».proof.Proof.Gen.Kernel.Skeleton
import proofs.«127633_g6665789243860_cont_9to1c4b_662_6_alg».proof.Proof.Gen.Kernel.Launch
import proofs.«127633_g6665789243860_cont_9to1c4b_662_6_alg».proof.Proof.Gen.Kernel.Points
import proofs.«127633_g6665789243860_cont_9to1c4b_662_6_alg».proof.Proof.Gen.Kernel.Frame
import proofs.«127633_g6665789243860_cont_9to1c4b_662_6_alg».proof.Proof.Gen.KernelIdeal
import proofs.«127633_g6665789243860_cont_9to1c4b_662_6_alg».proof.Proof.Gen.KernelIdeal.Skeleton
import proofs.«127633_g6665789243860_cont_9to1c4b_662_6_alg».proof.Proof.Gen.KernelIdeal.Launch
import proofs.«127633_g6665789243860_cont_9to1c4b_662_6_alg».proof.Proof.Gen.KernelIdeal.Points
import proofs.«127633_g6665789243860_cont_9to1c4b_662_6_alg».proof.Proof.Gen.KernelIdeal.Frame
import proofs.«127633_g6665789243860_cont_9to1c4b_662_6_alg».proof.Proof.Gen.ReferenceIdeal
import proofs.«127633_g6665789243860_cont_9to1c4b_662_6_alg».proof.Proof.Gen.Pre_finite_inputs
import proofs.«127633_g6665789243860_cont_9to1c4b_662_6_alg».proof.Proof.Gen.KernelIdeal.Value
import proofs.«127633_g6665789243860_cont_9to1c4b_662_6_alg».proof.Proof.Gen.ReferenceIdeal.Run
import proofs.«127633_g6665789243860_cont_9to1c4b_662_6_alg».proof.Proof.Gen.ReferenceIdeal.Read
import proofs.«127633_g6665789243860_cont_9to1c4b_662_6_alg».proof.Proof.Finite
import proofs.«127633_g6665789243860_cont_9to1c4b_662_6_alg».proof.Proof.KernelValue
import proofs.«127633_g6665789243860_cont_9to1c4b_662_6_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel ends with `(adj · x) · Wᵀ` and the reference with `adj · (x · Wᵀ)` of arguments
    that agree; every entry being a real number under the precondition, the two arrays are equal. -/
theorem algebraic : Cert.algebraic_KernelIdeal_ReferenceIdeal := by
  intro m ρ m' ρ' hpre hagree
  refine ⟨_, Cert.GraphConv.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v2_eq,
    Cert.GraphConv.RefValue.reference_eq]
  obtain ⟨h0, h1, h2⟩ := Cert.GraphConv.Finite.real_entries _ _ _ (hpre c)
  exact Cert.GraphConv.projFirst_eq_aggFirst _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
